-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4096x2048 .f32) (main_arg1 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4096x2048 : Shape := ⟨2, ![4096, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  natLt_1_32 : 1 < 32
  inb_S1024x1024_S1024x1024_0_0 : ∀ a, (![0, 0] : Fin 2 → Nat) a + S1024x1024.size a ≤ S1024x1024.size a
  h_S1024x1024 : 0 < S1024x1024.numel
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .f32 = 32 ∨ (Rect.block (s := S4096x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S2048x2048.size a
  hwx1_1 : ∀ i : grid1.Coords, EltTy.bits .bf16 = 32 ∨ (Rect.block (s := S2048x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x2048.size a
  hwx1_2 : ∀ i : grid1.Coords, EltTy.bits .f32 = 32 ∨ (Rect.block (s := S4096x2048) S1024x1024.size (cc1_transform_2 i) (hinb1_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .i1⟩
  | .hbm, ⟨21, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  transposes_S2048x2048_S2048x2048_1_0 : S2048x2048.Transposes [1, 0] S2048x2048
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The function both programs compute, over the extended reals.

  A row of logits `r` is turned into weights: with `M` the largest entry of the row (taken from `-∞` upward),
  the weight of entry `k` is `exp (r k - M)` divided by the sum of `exp (r k' - M)` over the row. Each output line `o`
  of a batch row `b` is the inner product of the batch row with line `o`'s weights, and the result is `1` where that
  inner product exceeds one half and `0` elsewhere.
-/
import Idealize.ShloMosaic.PureOps.Ideal
import Idealize.ShloMosaic.Lib.ValueIdx

noncomputable section

namespace Cert.Routing

open Idealize.ShloMosaic Idealize.ShloMosaic.ValueIdx

/-- The value both programs start a row's maximum from: the float word of `-∞`. -/
abbrev floor : EReal := FloatOps.ofBits (F := Ideal) .f32 0xFF800000#32

/-- The largest entry of a row, taken upward from `floor`. -/
def rowTop {n : Nat} (row : Fin n → EReal) : EReal := (Finset.univ : Finset (Fin n)).fold max floor row

/-- Entry `k` of a row, shifted by the row's largest entry and exponentiated. -/
def rowExp {n : Nat} (row : Fin n → EReal) (k : Fin n) : EReal := Ideal.exp (row k - rowTop row)

/-- The weight of entry `k` within its row: its shifted exponential over the sum of the row's. -/
def softRow {n : Nat} (row : Fin n → EReal) (k : Fin n) : EReal := Ideal.div (rowExp row k) (∑ k' : Fin n, rowExp row k')

/-- `1` where a value exceeds one half, `0` elsewhere. -/
def above (t : EReal) : EReal :=
  FloatOps.uitofp (F := Ideal) .f32 (FloatOps.cmpf (F := Ideal) (φ := .f32) .ogt t (FloatOps.ofBits (F := Ideal) .f32 0x3F000000#32))

/-- The weight depends only on the row's entries and on the position. -/
theorem softRow_congr {n : Nat} {row row' : Fin n → EReal} {k k' : Fin n} (h : ∀ j, row j = row' j) (hk : k = k') :
    softRow row k = softRow row' k' := by
  have e : row = row' := funext h
  rw [e, hk]

/-- The weights of a square array of logits: row `o`, position `k`. -/
def weights (rw : (⟨2, ![2048, 2048]⟩ : Shape).Idx → EReal) : (⟨2, ![2048, 2048]⟩ : Shape).Idx → EReal := fun i =>
  softRow (fun k : Fin 2048 => rw (ix2 (⟨(i 0).val, (i 0).isLt⟩ : Fin 2048) k)) (⟨(i 1).val, (i 1).isLt⟩ : Fin 2048)

theorem weights_ix2 (rw : (⟨2, ![2048, 2048]⟩ : Shape).Idx → EReal) (o k : Fin 2048) :
    weights rw (ix2 o k) = softRow (fun k' : Fin 2048 => rw (ix2 o k')) k := rfl

/-- The thresholded inner products of the batch rows of `x` with the lines of `w`. -/
def routed (x : (⟨2, ![4096, 2048]⟩ : Shape).Idx → EReal) (w : (⟨2, ![2048, 2048]⟩ : Shape).Idx → EReal) :
    (⟨2, ![4096, 2048]⟩ : Shape).Idx → EReal := fun i =>
  above (∑ k : Fin 2048, x (ix2 (⟨(i 0).val, (i 0).isLt⟩ : Fin 4096) k) * w (ix2 (⟨(i 1).val, (i 1).isLt⟩ : Fin 2048) k))

theorem routed_ix2 (x : (⟨2, ![4096, 2048]⟩ : Shape).Idx → EReal) (w : (⟨2, ![2048, 2048]⟩ : Shape).Idx → EReal)
    (b : Fin 4096) (o : Fin 2048) :
    routed x w (ix2 b o) = above (∑ k : Fin 2048, x (ix2 b k) * w (ix2 o k)) := rfl

end Cert.Routing

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibRowReduce.lean ====
/-
  A matrix reduced along its rows, read at an index, over arbitrary sizes.

  For an `[m, n]` array the sum along axis 1 at row `p` is `∑ k, src (p, k)`, and the maximum along axis 1 at row `p` is
  the fold of `max` over `k ↦ src (p, k)` from the accumulator's value — for a kernel's lane reduction and for the
  host's reduce alike (the host's sum adds its initial value in front).
-/
import Idealize.ShloMosaic.Lib.ValueIdx
import Idealize.ShloMosaic.PureOps.Ideal.Laws

noncomputable section

namespace Cert.Lib.RowReduce

open Idealize.ShloMosaic Idealize.ShloMosaic.ValueIdx

variable {m n : Nat} {φ : FTy}

/-- The index a row reduction reads for result row `p` and contracted coordinate `k` is `(p, k)`. -/
theorem lift_eq (h : Shape.Reduces ⟨2, ![m, n]⟩ [1] ⟨1, ![m]⟩) (p : Fin m) (k : Fin n) :
    h.lift (ix1 p) k = ix2 p k :=
  funext fun a => Fin.ext (by match a with | ⟨0, _⟩ => rfl | ⟨1, _⟩ => rfl)

/-- A kernel's row sum at row `p`. -/
theorem multiReduction_add_apply (src : FVec Ideal ⟨2, ![m, n]⟩ φ) (acc : BitVec φ.bits)
    (h : Shape.Reduces ⟨2, ![m, n]⟩ [1] ⟨1, ![m]⟩) (hφ : FKind.Formats φ) (hacc : acc = FKind.add.neutral φ hφ) (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_eq h p k))

/-- A kernel's row maximum at row `p`: the fold of `max` from the accumulator's value. -/
theorem multiReduction_maximumf_apply (src : FVec Ideal ⟨2, ![m, n]⟩ φ) (acc : BitVec φ.bits)
    (h : Shape.Reduces ⟨2, ![m, n]⟩ [1] ⟨1, ![m]⟩) (hφ : FKind.Formats φ) (hacc : acc = FKind.maximumf.neutral φ hφ) (p : Fin m) :
    multiReduction .maximumf [1] ⟨1, ![m]⟩ src acc h hφ hacc (ix1 p)
      = (Finset.univ : Finset (Fin n)).fold max (FloatOps.ofBits φ acc) (fun k => src (ix2 p k)) :=
  (Ideal.multiReduction_maximumf_single src acc h hφ hacc (ix1 p)).trans
    (congrArg (Finset.fold max (FloatOps.ofBits φ acc) · Finset.univ) (funext fun k => congrArg src (lift_eq h p k)))

end Cert.Lib.RowReduce

end
-- ==== Proof.SoftmaxBlock.lean ====
/-
  One block of the weights: what the first kernel's body stores, read at an index.

  The body takes a block of 512 rows of logits. For row `p` it takes the row's largest entry, shifts the row by it,
  exponentiates, sums the row, and divides: entry `(p, q)` of what it stores is the weight of position `q` within row
  `p` of the block — it depends on that row alone.
-/
import proofs.«175551_j46703474377144_1_alg».proof.Proof.Gen.KernelIdeal.Skeleton
import proofs.«175551_j46703474377144_1_alg».proof.Proof.Spec
import proofs.«175551_j46703474377144_1_alg».proof.Proof.LibColumn
import proofs.«175551_j46703474377144_1_alg».proof.Proof.LibRepeat
import proofs.«175551_j46703474377144_1_alg».proof.Proof.LibRowReduce

noncomputable section

namespace Cert.Routing.SoftmaxBlock

open Idealize.ShloMosaic Idealize.ShloMosaic.ValueIdx Cert.KernelIdeal Cert.KernelIdeal.Facts₀ Cert.Routing

/-- A per-row value cast to a column and repeated across the row reads, at `(p, q)`, the value of row `p`. -/
theorem perRow_apply (v : FVec Ideal S512 .f32) (p : Fin 512) (q : Fin 2048) :
    broadcastTo S512x2048 (shapeCast S512x1 v shapeCasts_S512_S512x1) broadcasts_S512x1_S512x2048 (ix2 p q) = v (ix1 p) :=
  (Cert.Lib.Repeat.colRepeat_apply _ broadcasts_S512x1_S512x2048 p q).trans
    (Cert.Lib.Column.shapeCast_a_a1_apply v shapeCasts_S512_S512x1 p 0)

variable (x0 : FVec Ideal S512x2048 .f32)

/-- Each row's largest entry, repeated across the row. -/
def tops : FVec Ideal S512x2048 .f32 :=
  broadcastTo S512x2048 (shapeCast S512x1 (multiReduction .maximumf [1] S512 x0 0xFF800000#32 reduces_S512x2048_S512 (.inl rfl) rfl)
    shapeCasts_S512_S512x1) broadcasts_S512x1_S512x2048

theorem tops_apply (p : Fin 512) (q : Fin 2048) : tops x0 (ix2 p q) = rowTop (fun k : Fin 2048 => x0 (ix2 p k)) :=
  (perRow_apply _ p q).trans (Cert.Lib.RowReduce.multiReduction_maximumf_apply x0 _ reduces_S512x2048_S512 _ _ p)

/-- The shifted exponentials of the block. -/
def exps : FVec Ideal S512x2048 .f32 := exp (subf x0 (tops x0))

theorem exps_apply (p : Fin 512) (q : Fin 2048) : exps x0 (ix2 p q) = rowExp (fun k : Fin 2048 => x0 (ix2 p k)) q := by
  show Ideal.exp (x0 (ix2 p q) - tops x0 (ix2 p q)) = _
  rw [tops_apply]
  rfl

/-- Each row's sum of shifted exponentials, repeated across the row. -/
def sums : FVec Ideal S512x2048 .f32 :=
  broadcastTo S512x2048 (shapeCast S512x1 (multiReduction .add [1] S512 (exps x0) 0x00000000#32 reduces_S512x2048_S512 (.inl rfl) rfl)
    shapeCasts_S512_S512x1) broadcasts_S512x1_S512x2048

theorem sums_apply (p : Fin 512) (q : Fin 2048) :
    sums x0 (ix2 p q) = ∑ k : Fin 2048, rowExp (fun k' : Fin 2048 => x0 (ix2 p k')) k :=
  (perRow_apply _ p q).trans
    ((Cert.Lib.RowReduce.multiReduction_add_apply (exps x0) _ reduces_S512x2048_S512 _ _ p).trans
      (Finset.sum_congr rfl fun k _ => exps_apply x0 p k))

/-- The body's stored value is the quotient of the two (the change of float format is the identity here). -/
theorem stored_eq : Gen.k0_pay1 (F := Ideal) x0 = truncf .bf16 (divf (exps x0) (sums x0)) bitsLt_bf16_f32 := rfl

/-- Entry `(p, q)` of what the body stores is the weight of position `q` in row `p` of the block. -/
theorem stored_apply (p : Fin 512) (q : Fin 2048) :
    Gen.k0_pay1 (F := Ideal) x0 (ix2 p q) = softRow (fun k : Fin 2048 => x0 (ix2 p k)) q := by
  rw [stored_eq]
  show Ideal.div (exps x0 (ix2 p q)) (sums x0 (ix2 p q)) = _
  rw [exps_apply, sums_apply]
  rfl

end Cert.Routing.SoftmaxBlock

end
-- ==== Proof.SoftmaxArray.lean ====
/-
  The whole array of weights, from its four blocks.

  The first region walks four points; at point `t` it reads rows `512 t … 512 t + 511` of the logits (all 2048
  columns) and writes back the same rows of the weights. A weight depends only on its own row of logits, and the row is
  inside the block, so what point `t` writes back is block `t` of the weights of the WHOLE array of logits. The four
  blocks tile the array, so after the region the output array is the weights of the logits the region found.
  Stated for any contents `V` the region is entered with.
-/
import proofs.«175551_j46703474377144_1_alg».proof.Proof.Gen.KernelIdeal.Frame
import proofs.«175551_j46703474377144_1_alg».proof.Proof.SoftmaxBlock
import Idealize.ShloMosaic.Lib.Pipeline.Value

set_option maxRecDepth 16384

noncomputable section

namespace Cert.Routing.SoftmaxArray

open Idealize.ShloMosaic Idealize.ShloMosaic.TcCoe Idealize.ShloMosaic.ValueIdx Idealize.SL.Sem
open Cert.KernelIdeal Cert.KernelIdeal.Gen Cert.Routing

/-- A block of 512 rows of logits that sits at rows `r …` of an array: what the body stores at `(p, q)` is the array's
    weight at `(r + p, q)`. -/
theorem stored_at (rw : S2048x2048.Idx → EReal) (x0 : FVec Ideal S512x2048 .f32) (r : Nat) (hr : r + 512 ≤ 2048)
    (hx : ∀ (p : Fin 512) (k : Fin 2048), x0 (ix2 p k) = rw (ix2 (⟨r + p.val, by omega⟩ : Fin 2048) k))
    (p : Fin 512) (q : Fin 2048) :
    k0_pay1 (F := Ideal) x0 (ix2 p q) = weights rw (ix2 (⟨r + p.val, by omega⟩ : Fin 2048) q) := by
  rw [SoftmaxBlock.stored_apply, weights_ix2]
  exact softRow_congr (fun k => hx p k) rfl

variable (V : (c : Dev nD) → (b : Ref sig .tc) → Buf (Elt Ideal) ((c : Thread nD τ).loc b))

theorem origin : (![0, 0] : Fin 2 → Nat) = fun _ => 0 := funext fun a => by fin_cases a <;> rfl

/-- The two windows move together: at point `t` both name block row `t`, block column `0`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 4 := lt_of_lt_of_eq t.isLt N_0

/-- What point `t` writes back is block `t` of the weights of the logits as the region finds them. -/
theorem flushed_eq (c : Dev nD) (t : Fin cfg0.N) :
    (dat0 V c).flushed 1 t = ((cfg0.win 1).blk t).view.read (Elt Ideal) (weights (V c main_arg1)) := by
  show (cfg0.win 1).cut (grid0.coords t) ((dat0 V c).after 1 t) = _
  rw [after0_1]
  unfold out0_1
  rw [View.canon_unit_zero origin]
  simp only [View.ld_unit_zero (S := S512x2048) origin]
  obtain ⟨e0, e1, e2, e3⟩ := index_facts t
  have ht := point_lt t
  funext j
  show k0_pay1 (F := Ideal) (iblk0 V c 0 t) j = weights (V c main_arg1) (((cfg0.win 1).blk t).view.emb j)
  have hj : j = ix2 (n0 := 512) (n1 := 2048) (j 0) (j 1) := eq_ix2 j
  rw [hj]
  refine (stored_at (V c main_arg1) (iblk0 V c 0 t) (512 * t.val) (by omega) ?_ (j 0) (j 1)).trans ?_
  · intro p k
    show V c main_arg1 (((cfg0.win 0).blk t).view.emb (ix2 p k)) = _
    refine congrArg (V c main_arg1) (funext fun a => Fin.ext ?_)
    match a with
    | ⟨0, _⟩ => show win0_0.index t (0 : Fin 2) * 512 + 1 * p.val = 512 * t.val + p.val; omega
    | ⟨1, _⟩ => show win0_0.index t (1 : Fin 2) * 2048 + 1 * k.val = k.val; omega
  · refine congrArg (weights (V c main_arg1)) (funext fun a => Fin.ext ?_)
    match a with
    | ⟨0, _⟩ => show 512 * t.val + (j 0).val = win0_1.index t (0 : Fin 2) * 512 + 1 * (j 0).val; omega
    | ⟨1, _⟩ => show (j 1).val = win0_1.index t (1 : Fin 2) * 2048 + 1 * (j 1).val; omega

/-- An index of the array is in point `t`'s block iff each coordinate is in the block's range on its axis. -/
theorem mem_blk (t : Fin cfg0.N) (i : S2048x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v0).slice (win0_1.rect t)).set ↔ _
  rw [View.set_slice_whole, Rect.mem_set_unit]
  exact Iff.rfl

/-- Row `r` of the array is in the block of point `r / 512`. -/
theorem cover (i : S2048x2048.Idx) :
    ∃ t : Fin cfg0.N, (cfg0.win 1).flush t = true ∧ i ∈ ((cfg0.win 1).blk t).view.set := by
  have hi0 : (i 0).val < 2048 := (i 0).isLt
  have hi1 : (i 1).val < 2048 := (i 1).isLt
  have hlt : (i 0).val / 512 < cfg0.N := lt_of_lt_of_eq (by omega : (i 0).val / 512 < 4) N_0.symm
  obtain ⟨e0, e1, e2, e3⟩ := index_facts ⟨(i 0).val / 512, hlt⟩
  refine ⟨⟨(i 0).val / 512, hlt⟩, flush0_1 _, ?_⟩
  rw [mem_blk]
  intro a
  match a with
  | ⟨0, _⟩ =>
    show win0_1.index ⟨(i 0).val / 512, hlt⟩ (0 : Fin 2) * 512 ≤ (i 0).val
      ∧ (i 0).val < win0_1.index ⟨(i 0).val / 512, hlt⟩ (0 : Fin 2) * 512 + 512
    have e2' : win0_1.index ⟨(i 0).val / 512, hlt⟩ (0 : Fin 2) = (i 0).val / 512 := e2
    omega
  | ⟨1, _⟩ =>
    show win0_1.index ⟨(i 0).val / 512, hlt⟩ (1 : Fin 2) * 2048 ≤ (i 1).val
      ∧ (i 1).val < win0_1.index ⟨(i 0).val / 512, hlt⟩ (1 : Fin 2) * 2048 + 2048
    omega

/-- After the region, the output array holds the weights of the logits the region was entered with. -/
theorem array_eq (c : Dev nD) : (dat0 V c).arrAt 1 cfg0.N = weights (V c main_arg1) :=
  (dat0 V c).arrAt_eq_of_cover 1 (weights (V c main_arg1)) (fun t _ => flushed_eq V c t) cover

end Cert.Routing.SoftmaxArray

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.ProductBlock.lean ====
/-
  One block of the result: what the second kernel's body stores, read at an index.

  The body takes 1024 batch rows and 1024 lines of weights, multiplies the first by the transpose of the second into
  a zero accumulator, and stores `1` where a product entry exceeds one half and `0` elsewhere: entry `(p, q)` is the
  thresholded inner product of batch row `p` with weight line `q` of the two blocks.
-/
import proofs.«175551_j46703474377144_1_alg».proof.Proof.Gen.KernelIdeal.Skeleton
import proofs.«175551_j46703474377144_1_alg».proof.Proof.Spec
import proofs.«175551_j46703474377144_1_alg».proof.Proof.LibTransposedProduct
import Idealize.ShloMosaic.Lib.Pipeline.Value
import Idealize.ShloMosaic.Lib.KernelVsHost

noncomputable section

namespace Cert.Routing.ProductBlock

open Idealize.ShloMosaic Idealize.ShloMosaic.ValueIdx Cert.KernelIdeal Cert.KernelIdeal.Facts₀ Cert.Routing

/-- The body's product contracts both operands along their last axis. -/
theorem dims_eq : dot_S1024x2048_S1024x2048_S1024x1024_1_1_0_0_n_n = DotDims.transposedRhs 1024 2048 1024 := rfl

variable (x0 : FVec Ideal S1024x2048 .f32) (x1 : FVec Ideal S1024x2048 .bf16)

/-- The product the body forms. -/
def prod : FVec Ideal S1024x1024 .f32 :=
  matmul dot_S1024x2048_S1024x2048_S1024x1024_1_1_0_0_n_n none (truncf .bf16 x0 bitsLt_bf16_f32)
    (shapeCast S1024x2048 x1 shapeCasts_S1024x2048_S1024x2048) (constant S1024x1024 .f32 0x00000000#32)

theorem prod_apply (p q : Fin 1024) : prod x0 x1 (ix2 p q) = ∑ k : Fin 2048, x0 (ix2 p k) * x1 (ix2 q k) := by
  unfold prod
  rw [shapeCast_self]
  exact Cert.Lib.TransposedProduct.matmul_apply _ dims_eq none (truncf .bf16 x0 bitsLt_bf16_f32) x1 p q

/-- The comparison with one half, as a bit. -/
def bits : IVec S1024x1024 1 := cmpf .ogt (prod x0 x1) (broadcast S1024x1024 (Scalar.ofBits (F := Ideal) .f32 0x3F000000#32))

/-- The stored value: the bit widened and converted, which is the bit converted. -/
theorem stored_eq : Gen.k1_pay1 (F := Ideal) x0 x1 = uitofp .f32 (bits x0 x1) :=
  sitofp_extui_eq_uitofp (bits x0 x1) natLt_1_32

/-- Entry `(p, q)` of what the body stores. -/
theorem stored_apply (p q : Fin 1024) :
    Gen.k1_pay1 (F := Ideal) x0 x1 (ix2 p q) = above (∑ k : Fin 2048, x0 (ix2 p k) * x1 (ix2 q k)) := by
  rw [stored_eq]
  show FloatOps.uitofp (F := Ideal) .f32 (FloatOps.cmpf (F := Ideal) (φ := .f32) .ogt (prod x0 x1 (ix2 p q)) _) = _
  rw [prod_apply]
  rfl

end Cert.Routing.ProductBlock

end
-- ==== Proof.ProductArray.lean ====
/-
  The whole result array, from its eight blocks.

  The second region walks a 4 × 2 grid; at point `t = 2 a + b` it reads batch rows `1024 a …` and weight lines
  `1024 b …` (all 2048 columns of each) and writes back the `1024 × 1024` block of the result at block row `a`, block
  column `b`. A result entry `(r, s)` is the thresholded inner product of batch row `r` with weight line `s`; both lie
  inside the two blocks read, so what the point writes back is its block of the result of the WHOLE arrays. The eight
  blocks tile the array. Stated for any contents `V` the region is entered with.
-/
import proofs.«175551_j46703474377144_1_alg».proof.Proof.Gen.KernelIdeal.Frame
import proofs.«175551_j46703474377144_1_alg».proof.Proof.ProductBlock
import Idealize.ShloMosaic.Lib.Pipeline.Value

set_option maxRecDepth 16384

noncomputable section

namespace Cert.Routing.ProductArray

open Idealize.ShloMosaic Idealize.ShloMosaic.TcCoe Idealize.ShloMosaic.ValueIdx Idealize.SL.Sem
open Cert.KernelIdeal Cert.KernelIdeal.Gen Cert.Routing

/-- A block of 1024 batch rows at rows `r …` and a block of 1024 weight lines at lines `s …`: what the body stores at
    `(p, q)` is the arrays' result at `(r + p, s + q)`. -/
theorem stored_at (x : S4096x2048.Idx → EReal) (w : S2048x2048.Idx → EReal)
    (x0 : FVec Ideal S1024x2048 .f32) (x1 : FVec Ideal S1024x2048 .bf16) (r s : Nat) (hr : r + 1024 ≤ 4096) (hs : s + 1024 ≤ 2048)
    (hx0 : ∀ (p : Fin 1024) (k : Fin 2048), x0 (ix2 p k) = x (ix2 (⟨r + p.val, by omega⟩ : Fin 4096) k))
    (hx1 : ∀ (q : Fin 1024) (k : Fin 2048), x1 (ix2 q k) = w (ix2 (⟨s + q.val, by omega⟩ : Fin 2048) k))
    (p q : Fin 1024) :
    k1_pay1 (F := Ideal) x0 x1 (ix2 p q)
      = routed x w (ix2 (⟨r + p.val, by omega⟩ : Fin 4096) (⟨s + q.val, by omega⟩ : Fin 2048)) := by
  rw [ProductBlock.stored_apply, routed_ix2]
  exact congrArg above (Finset.sum_congr rfl fun k _ => by rw [hx0 p k, hx1 q k])

variable (V : (c : Dev nD) → (b : Ref sig .tc) → Buf (Elt Ideal) ((c : Thread nD τ).loc b))

theorem origin : (![0, 0] : Fin 2 → Nat) = fun _ => 0 := funext fun a => by fin_cases a <;> rfl

/-- At point `t` the batch window names block row `t / 2`, the weight window block row `t % 2`, and the output window the
    block at `(t / 2, t % 2)`; the two input windows span all columns. -/
theorem index_facts : ∀ t : Fin cfg1.N, win1_0.index t (0 : Fin 2) = t.val / 2 ∧ win1_0.index t (1 : Fin 2) = 0
    ∧ win1_1.index t (0 : Fin 2) = t.val % 2 ∧ win1_1.index t (1 : Fin 2) = 0
    ∧ win1_2.index t (0 : Fin 2) = t.val / 2 ∧ win1_2.index t (1 : Fin 2) = t.val % 2 :=
  (by decide +kernel : ∀ t : Fin grid1.N, _)

theorem point_lt (t : Fin cfg1.N) : t.val < 8 := lt_of_lt_of_eq t.isLt N_1

/-- What point `t` writes back is its block of the result of the two arrays as the region finds them. -/
theorem flushed_eq (c : Dev nD) (t : Fin cfg1.N) :
    (dat1 V c).flushed 2 t = ((cfg1.win 2).blk t).view.read (Elt Ideal) (routed (V c main_arg0) (V c main_v0)) := by
  show (cfg1.win 2).cut (grid1.coords t) ((dat1 V c).after 2 t) = _
  rw [after1_2]
  unfold out1_2
  rw [View.canon_unit_zero origin]
  simp only [View.ld_unit_zero (S := S1024x2048) origin]
  obtain ⟨e0, e1, e2, e3, e4, e5⟩ := index_facts t
  have ht := point_lt t
  funext j
  show k1_pay1 (F := Ideal) (iblk1 V c 0 t) (iblk1 V c 1 t) j
    = routed (V c main_arg0) (V c main_v0) (((cfg1.win 2).blk t).view.emb j)
  have hj : j = ix2 (n0 := 1024) (n1 := 1024) (j 0) (j 1) := eq_ix2 j
  rw [hj]
  refine (stored_at (V c main_arg0) (V c main_v0) (iblk1 V c 0 t) (iblk1 V c 1 t) (1024 * (t.val / 2)) (1024 * (t.val % 2))
    (by omega) (by omega) ?_ ?_ (j 0) (j 1)).trans ?_
  · intro p k
    show V c main_arg0 (((cfg1.win 0).blk t).view.emb (ix2 p k)) = _
    refine congrArg (V c main_arg0) (funext fun a => Fin.ext ?_)
    match a with
    | ⟨0, _⟩ => show win1_0.index t (0 : Fin 2) * 1024 + 1 * p.val = 1024 * (t.val / 2) + p.val; omega
    | ⟨1, _⟩ => show win1_0.index t (1 : Fin 2) * 2048 + 1 * k.val = k.val; omega
  · intro q k
    show V c main_v0 (((cfg1.win 1).blk t).view.emb (ix2 q k)) = _
    refine congrArg (V c main_v0) (funext fun a => Fin.ext ?_)
    match a with
    | ⟨0, _⟩ => show win1_1.index t (0 : Fin 2) * 1024 + 1 * q.val = 1024 * (t.val % 2) + q.val; omega
    | ⟨1, _⟩ => show win1_1.index t (1 : Fin 2) * 2048 + 1 * k.val = k.val; omega
  · refine congrArg (routed (V c main_arg0) (V c main_v0)) (funext fun a => Fin.ext ?_)
    match a with
    | ⟨0, _⟩ => show 1024 * (t.val / 2) + (j 0).val = win1_2.index t (0 : Fin 2) * 1024 + 1 * (j 0).val; omega
    | ⟨1, _⟩ => show 1024 * (t.val % 2) + (j 1).val = win1_2.index t (1 : Fin 2) * 1024 + 1 * (j 1).val; omega

/-- An index of the array is in point `t`'s block iff each coordinate is in the block's range on its axis. -/
theorem mem_blk (t : Fin cfg1.N) (i : S4096x2048.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v1).slice (win1_2.rect t)).set ↔ _
  rw [View.set_slice_whole, Rect.mem_set_unit]
  exact Iff.rfl

/-- Entry `(r, s)` of the array is in the block of point `2 (r / 1024) + s / 1024`. -/
theorem cover (i : S4096x2048.Idx) :
    ∃ t : Fin cfg1.N, (cfg1.win 2).flush t = true ∧ i ∈ ((cfg1.win 2).blk t).view.set := by
  have hi0 : (i 0).val < 4096 := (i 0).isLt
  have hi1 : (i 1).val < 2048 := (i 1).isLt
  have hlt : 2 * ((i 0).val / 1024) + (i 1).val / 1024 < cfg1.N :=
    lt_of_lt_of_eq (by omega : 2 * ((i 0).val / 1024) + (i 1).val / 1024 < 8) N_1.symm
  obtain ⟨e0, e1, e2, e3, e4, e5⟩ := index_facts ⟨2 * ((i 0).val / 1024) + (i 1).val / 1024, hlt⟩
  refine ⟨⟨2 * ((i 0).val / 1024) + (i 1).val / 1024, hlt⟩, flush1_2 _, ?_⟩
  rw [mem_blk]
  intro a
  match a with
  | ⟨0, _⟩ =>
    show win1_2.index ⟨2 * ((i 0).val / 1024) + (i 1).val / 1024, hlt⟩ (0 : Fin 2) * 1024 ≤ (i 0).val
      ∧ (i 0).val < win1_2.index ⟨2 * ((i 0).val / 1024) + (i 1).val / 1024, hlt⟩ (0 : Fin 2) * 1024 + 1024
    have e4' : win1_2.index ⟨2 * ((i 0).val / 1024) + (i 1).val / 1024, hlt⟩ (0 : Fin 2)
      = (2 * ((i 0).val / 1024) + (i 1).val / 1024) / 2 := e4
    omega
  | ⟨1, _⟩ =>
    show win1_2.index ⟨2 * ((i 0).val / 1024) + (i 1).val / 1024, hlt⟩ (1 : Fin 2) * 1024 ≤ (i 1).val
      ∧ (i 1).val < win1_2.index ⟨2 * ((i 0).val / 1024) + (i 1).val / 1024, hlt⟩ (1 : Fin 2) * 1024 + 1024
    have e5' : win1_2.index ⟨2 * ((i 0).val / 1024) + (i 1).val / 1024, hlt⟩ (1 : Fin 2)
      = (2 * ((i 0).val / 1024) + (i 1).val / 1024) % 2 := e5
    omega

/-- After the region, the output array holds the result of the two arrays the region was entered with. -/
theorem array_eq (c : Dev nD) : (dat1 V c).arrAt 2 cfg1.N = routed (V c main_arg0) (V c main_v0) :=
  (dat1 V c).arrAt_eq_of_cover 2 (routed (V c main_arg0) (V c main_v0)) (fun t _ => flushed_eq V c t) cover

end Cert.Routing.ProductArray

end
-- ==== Proof.KernelValue.lean ====
/-
  What the kernel's result array holds after the run.

  The result buffer ends at what the second region's write-backs leave. That region was entered with the batch array
  as launched (the first region does not touch it) and with the weight buffer at what the FIRST region's write-backs
  left, which is the array of weights of the logits as launched. So the result is the thresholded inner products of the
  launched batch rows with the weights of the launched logits.
-/
import proofs.«175551_j46703474377144_1_alg».proof.Proof.FrameResult
import proofs.«175551_j46703474377144_1_alg».proof.Proof.SoftmaxArray
import proofs.«175551_j46703474377144_1_alg».proof.Proof.ProductArray

noncomputable section

namespace Cert.Routing.KernelValue

open Idealize.ShloMosaic Idealize.ShloMosaic.TcCoe Idealize.SL.Sem
open Cert.KernelIdeal Cert.KernelIdeal.Gen Cert.Routing

variable (m : (ℓ : Loc nD τ sig) → Buf (Elt Ideal) ℓ) (ρ : Dev nD → PrngReg)

/-- The second region finds the batch array as launched. -/
theorem batch_kept (c : Dev nD) : V1 m ρ c main_arg0 = m ((c.tc : Thread nD τ).loc main_arg0) :=
  W1_of_ne m ρ c main_arg0 (by decide)

/-- The second region finds the weight buffer at the weights of the launched logits. -/
theorem weights_found (c : Dev nD) : V1 m ρ c main_v0 = weights (m ((c.tc : Thread nD τ).loc main_arg1)) :=
  (W1_arr m ρ c 1).trans (SoftmaxArray.array_eq (V0 m ρ) c)

/-- The result buffer's final contents. -/
theorem result_contents (c : Dev nD) :
    W2 m ρ c (Proc.devRef .tc main_v1)
      = routed (m ((c.tc : Thread nD τ).loc main_arg0)) (weights (m ((c.tc : Thread nD τ).loc main_arg1))) :=
  (W2_arr m ρ c 2).trans ((ProductArray.array_eq (V1 m ρ) c).trans (congrArg₂ routed (batch_kept m ρ c) (weights_found m ρ c)))

/-- Every weakly fair execution of the idealized kernel terminates without a fault, with the result array at that
    function of the launched arguments and the arguments unchanged. -/
theorem run : θ_run defs (onTc (τ := τ) (main (F := Ideal))) ⟨m, fun _ => 0, ρ⟩ (fun r => ∀ c : Dev nD,
      r.2.mem ((c.tc : Thread nD τ).loc main_v1)
        = routed (m ((c.tc : Thread nD τ).loc main_arg0)) (weights (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_contents m ρ c), (h c).2⟩)
    (Cert.KernelIdeal.GenP.frame_result m ρ)

end Cert.Routing.KernelValue

end
-- ==== Proof.Reference.lean ====
/-
  The reference computes the same function.

  Read one operation at a time: the reference's row maximum is the fold of `max` over the row from `-∞`, and taking
  `max` with `-∞` once more changes nothing; its row sum starts from the float zero, which adds nothing; its quotient
  is the weight; it transposes the weights and contracts the batch rows against them, which is the inner product of a
  batch row with a line of weights; and it converts the comparison with one half to `1` or `0`.
-/
import proofs.«175551_j46703474377144_1_alg».proof.Proof.Gen.ReferenceIdeal.Read
import proofs.«175551_j46703474377144_1_alg».proof.Proof.Spec
import Idealize.ShloMosaic.PureOps.Reduce

noncomputable section

namespace Cert.Routing.Reference

open Idealize.ShloMosaic Idealize.ShloMosaic.ValueIdx Cert.ReferenceIdeal Cert.ReferenceIdeal.Read Cert.Routing

variable (x0 : (⟨S4096x2048, .f32⟩ : BufTy).Contents (Elt Ideal)) (x1 : (⟨S2048x2048, .f32⟩ : BufTy).Contents (Elt Ideal))

/-- The largest entry of row `o`, as the reference reduces it. -/
theorem rowMax_apply (o : Fin 2048) : val_main_v0 (F := Ideal) x1 (ix1 o) = rowTop (fun k : Fin 2048 => x1 (ix2 o k)) := by
  unfold val_main_v0
  refine (Host.reduce_eq_fold_single (FloatOps.maximumf (F := Ideal) (φ := .f32)) x1 (val_main_cst (F := Ideal))
    Facts₀.reducesTo_S2048x2048_S2048_d1 (by decide) Facts₀.h_S_ (ix1 o)).trans ?_
  exact congrArg (Finset.fold max floor · Finset.univ)
    (funext fun k => congrArg x1 (funext fun a => Fin.ext (by match a with | ⟨0, _⟩ => rfl | ⟨1, _⟩ => rfl)))

/-- Taking `max` with the fold's own starting value changes nothing. -/
theorem max_floor_rowTop {n : Nat} (row : Fin n → EReal) : max floor (rowTop row) = rowTop row :=
  max_eq_right ((Finset.le_fold_max _).mpr (Or.inl le_rfl))

/-- The shift of row `o`. -/
theorem shift_apply (o k : Fin 2048) : val_main_v4 (F := Ideal) x1 (ix2 o k) = rowTop (fun k' : Fin 2048 => x1 (ix2 o k')) := by
  rw [val_main_v4_apply, val_main_v3_apply, val_main_v2_apply, val_main_v1_apply, val_main_cst_0_apply]
  have e : idx_main_v3 (idx_main_v4 (ix2 o k)) = ix1 o := funext fun a => Fin.ext (by match a with | ⟨0, _⟩ => rfl)
  rw [e, rowMax_apply]
  exact max_floor_rowTop _

/-- The shifted exponential at `(o, k)`. -/
theorem exp_apply (o k : Fin 2048) : val_main_v6 (F := Ideal) x1 (ix2 o k) = rowExp (fun k' : Fin 2048 => x1 (ix2 o k')) k := by
  rw [val_main_v6_apply, val_main_v5_apply, shift_apply]
  rfl

/-- The row sum at `(o, k)`. -/
theorem sum_apply (o k : Fin 2048) :
    val_main_v9 (F := Ideal) x1 (ix2 o k) = ∑ k' : Fin 2048, rowExp (fun j : Fin 2048 => x1 (ix2 o j)) k' := by
  rw [val_main_v9_apply, val_main_v8_apply, val_main_v7_apply, val_main_cst_1_apply]
  show Ideal.ofBits .f32 0x00000000#32 + _ = _
  rw [Ideal.ofBits_zero_f32, zero_add]
  refine Finset.sum_congr rfl fun k' _ => ?_
  have e : idx_main_v7 (idx_main_v8 (idx_main_v9 (ix2 o k))) k' = ix2 o k' :=
    funext fun a => Fin.ext (by match a with | ⟨0, _⟩ => rfl | ⟨1, _⟩ => rfl)
  rw [e, exp_apply]

/-- The reference's quotient is the array of weights. -/
theorem weights_eq : val_main_v10 (F := Ideal) x1 = weights x1 := by
  funext i
  obtain ⟨o, k, rfl⟩ : ∃ (o k : Fin 2048), i = ix2 o k := ⟨i 0, i 1, eq_ix2 i⟩
  rw [val_main_v10_apply, exp_apply, sum_apply, weights_ix2]
  rfl

/-- The reference's result is the thresholded inner products of the batch rows with the lines of weights. -/
theorem result_eq : val_main_v15 (F := Ideal) x0 x1 = routed x0 (weights x1) := by
  funext i
  obtain ⟨b, o, rfl⟩ : ∃ (b : Fin 4096) (o : Fin 2048), i = ix2 b o := ⟨i 0, i 1, eq_ix2 i⟩
  rw [val_main_v15_apply, val_main_v14_apply, val_main_v12_apply, val_main_v13_apply, val_main_cst_2_apply, routed_ix2]
  refine congrArg (fun s => FloatOps.uitofp (F := Ideal) .f32 (FloatOps.cmpf (F := Ideal) (φ := .f32) .ogt s
    (FloatOps.ofBits (F := Ideal) .f32 0x3F000000#32))) (Finset.sum_congr rfl fun k _ => ?_)
  rw [val_main_v11_apply, weights_eq]
  have el : lidx_main_v12 (ix2 b o) k = ix2 b k := funext fun a => Fin.ext (by match a with | ⟨0, _⟩ => rfl | ⟨1, _⟩ => rfl)
  have er : idx_main_v11 (ridx_main_v12 (ix2 b o) k) = ix2 o k :=
    funext fun a => Fin.ext (by match a with | ⟨0, _⟩ => rfl | ⟨1, _⟩ => rfl)
  rw [el, er]

end Cert.Routing.Reference

end
-- ==== Proof.lean ====
/-
  The kernel and its reference compute one function over the extended reals.

  Both turn each row of logits into weights — the row shifted by its largest entry, exponentiated, and divided by the
  row's sum of those exponentials — take the inner product of every batch row with every line of weights, and return
  `1` where an inner product exceeds one half and `0` elsewhere. The kernel does it in two regions, the weights 512 rows
  at a time and the products in 1024 × 1024 blocks; the reference in one pass over whole arrays. The two differ only in
  the order in which sums and maxima are taken, in a `max` with `-∞` and a sum from zero that change nothing, and in
  how a comparison bit is converted; none of this needs the inputs to be finite, so the precondition is not opened.
  The idealization rewrote nothing, so the kernel's idealized program is its own text read over the extended reals.
-/
import proofs.«175551_j46703474377144_1_alg».proof.Defs
import proofs.«175551_j46703474377144_1_alg».proof.Proof.Gen.Kernel
import proofs.«175551_j46703474377144_1_alg».proof.Proof.Gen.Kernel.Frame
import proofs.«175551_j46703474377144_1_alg».proof.Proof.Gen.KernelIdeal
import proofs.«175551_j46703474377144_1_alg».proof.Proof.Gen.KernelIdeal.Frame
import proofs.«175551_j46703474377144_1_alg».proof.Proof.Gen.ReferenceIdeal
import proofs.«175551_j46703474377144_1_alg».proof.Proof.Gen.ReferenceIdeal.Run
import proofs.«175551_j46703474377144_1_alg».proof.Proof.Gen.ReferenceIdeal.Read
import proofs.«175551_j46703474377144_1_alg».proof.Proof.Gen.Pre_finite_inputs
import proofs.«175551_j46703474377144_1_alg».proof.Proof.KernelValue
import proofs.«175551_j46703474377144_1_alg».proof.Proof.Reference
import Idealize.ShloMosaic.Adequacy
import Idealize.ShloMosaic.Init

noncomputable section

namespace Cert.Proof

open Idealize.ShloMosaic Idealize.ShloMosaic.TcCoe Idealize.SL.Sem Cert.Routing

/-- The kernel as printed runs to the end without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the thresholded inner products
    of the batch rows with the weights of the logits. -/
theorem algebraic : Cert.algebraic_KernelIdeal_ReferenceIdeal := by
  intro m ρ m' ρ' _ hagree
  refine ⟨_, KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans (Reference.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
